-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1024x50000 : Shape := ⟨2, ![1024, 50000]⟩
abbrev S1024 : Shape := ⟨1, ![1024]⟩
abbrev S512x1024 : Shape := ⟨2, ![512, 1024]⟩
abbrev S512 : Shape := ⟨1, ![512]⟩
abbrev S256 : Shape := ⟨1, ![256]⟩
abbrev S_ : Shape := ⟨0, ![]⟩

class Facts : Prop where
  bcast_S_S1024x50000 : S_.BroadcastsInDim S1024x50000 (![] : Fin 0 → Fin S1024x50000.rank)
  reducesTo_S1024x50000_S_d0_1 : S1024x50000.ReducesTo [0, 1] S_
  h_S_ : 0 < S_.numel
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x512 .f32) (main_arg6 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : IVec S256x512 32) (main_arg1 : FVec F S1024x50000 .f32) (main_arg2 : FVec F S1024 .f32) (main_arg3 : FVec F S512x1024 .f32) (main_arg4 : FVec F S512 .f32) (main_arg5 : FVec F S256x512 .f32) (main_arg6 : FVec F S256 .f32) : IVec S_ 1 :=
  let main_v0 : FVec F S1024x50000 .f32 := Host.absf main_arg1
  let main_cst : FVec F S_ .f32 := constant S_ .f32 0x7F800000#32
  let main_v1 : FVec F S1024x50000 .f32 := broadcastInDim S1024x50000 ![] bcast_S_S1024x50000 main_cst
  let main_v2 : IVec S1024x50000 1 := cmpf .olt main_v0 main_v1
  let main_c : IVec S_ 1 := constantI S_ 1 1#1
  let main_v3 : IVec S_ 1 := (fun x v => Host.reduce IntOp.andi x v reducesTo_S1024x50000_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S256x512 : Shape := ⟨2, ![256, 512]⟩
abbrev S1024x50000 : Shape := ⟨2, ![1024, 50000]⟩
abbrev S1024 : Shape := ⟨1, ![1024]⟩
abbrev S512x1024 : Shape := ⟨2, ![512, 1024]⟩
abbrev S512 : Shape := ⟨1, ![512]⟩
abbrev S256 : Shape := ⟨1, ![256]⟩
abbrev S256x1 : Shape := ⟨2, ![256, 1]⟩
abbrev S_ : Shape := ⟨0, ![]⟩
abbrev S256x50000 : Shape := ⟨2, ![256, 50000]⟩
abbrev S256x512x1 : Shape := ⟨3, ![256, 512, 1]⟩
abbrev S256x512x2 : Shape := ⟨3, ![256, 512, 2]⟩
abbrev S256x51200 : Shape := ⟨2, ![256, 51200]⟩
abbrev S1024x51200 : Shape := ⟨2, ![1024, 51200]⟩
abbrev S256x256 : Shape := ⟨2, ![256, 256]⟩
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S1x512 : Shape := ⟨2, ![1, 512]⟩
abbrev S1x256 : Shape := ⟨2, ![1, 256]⟩

abbrev nBuf : Space → Nat
  | .hbm => 39
  | .vmem => 11
  | .smem => 0
  | _ => 0

abbrev bufTy : (tb : Table) → Fin (tcTables nBuf tb) → BufTy
  | .hbm, ⟨0, _⟩ => ⟨S256x512, .i32⟩
  | .hbm, ⟨1, _⟩ => ⟨S1024x50000, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256, .i32⟩
  | .hbm, ⟨8, _⟩ => ⟨S256x1, .i32⟩
  | .hbm, ⟨9, _⟩ => ⟨S_, .f32⟩
  | .hbm, ⟨10, _⟩ => ⟨S256x50000, .f32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x512, .i32⟩
  | .hbm, ⟨20, _⟩ => ⟨S256x512, .i1⟩
  | .hbm, ⟨21, _⟩ => ⟨S_, .i32⟩
  | .hbm, ⟨22, _⟩ => ⟨S256x512, .i32⟩
  | .hbm, ⟨23, _⟩ => ⟨S256x512, .i32⟩
  | .hbm, ⟨24, _⟩ => ⟨S256x512, .i32⟩
  | .hbm, ⟨25, _⟩ => ⟨S256x512, .i32⟩
  | .hbm, ⟨26, _⟩ => ⟨S256x512x1, .i32⟩
  | .hbm, ⟨27, _⟩ => ⟨S256x512x1, .i32⟩
  | .hbm, ⟨28, _⟩ => ⟨S256x512x2, .i32⟩
  | .hbm, ⟨29, _⟩ => ⟨S_, .f32⟩
  | .hbm, ⟨30, _⟩ => ⟨S256x512, .f32⟩
  | .hbm, ⟨31, _⟩ => ⟨S256x50000, .f32⟩
  | .hbm, ⟨32, _⟩ => ⟨S_, .i32⟩
  | .hbm, ⟨33, _⟩ => ⟨S_, .f32⟩
  | .hbm, ⟨34, _⟩ => ⟨S256x51200, .f32⟩
  | .hbm, ⟨35, _⟩ => ⟨S_, .i32⟩
  | .hbm, ⟨36, _⟩ => ⟨S_, .f32⟩
  | .hbm, ⟨37, _⟩ => ⟨S1024x51200, .f32⟩
  | .hbm, ⟨38, _⟩ => ⟨S256x256, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S256x512, .f32⟩
  | .local _ .vmem, ⟨6, _⟩ => ⟨S1024, .f32⟩
  | .local _ .vmem, ⟨7, _⟩ => ⟨S512, .f32⟩
  | .local _ .vmem, ⟨8, _⟩ => ⟨S256, .f32⟩
  | .local _ .vmem, ⟨9, _⟩ => ⟨S256x256, .f32⟩
  | .local _ .vmem, ⟨10, _⟩ => ⟨S256x1024, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call0_v0 : Ref sig .tc := ⟨.hbm, 33, rfl⟩
abbrev main_v19 : Ref sig .tc := ⟨.hbm, 34, rfl⟩
abbrev main_c_5 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S256_S256x1_0 : S256.BroadcastsInDim S256x1 (![0] : Fin 1 → Fin S256x1.rank)
  bcast_S_S256x50000 : S_.BroadcastsInDim S256x50000 (![] : Fin 0 → Fin S256x50000.rank)
  bcast_S_S256x1 : S_.BroadcastsInDim S256x1 (![] : Fin 0 → Fin S256x1.rank)
  bcast_S_S256x512 : S_.BroadcastsInDim S256x512 (![] : Fin 0 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  concatenates_S256x512x1_S256x512x1_S256x512x2_d2 : Shape.Concatenates [S256x512x1, S256x512x1] S256x512x2 2
  pads_S256x50000_S256x51200_000_012000 : S256x50000.Pads (![0, 0] : Fin 2 → Nat) ![0, 1200] ![0, 0] S256x51200
  h_S_ : 0 < S_.numel
  pads_S1024x50000_S1024x51200_000_012000 : S1024x50000.Pads (![0, 0] : Fin 2 → Nat) ![0, 1200] ![0, 0] S1024x51200
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  scatter_S256x50000_S256x512x2_S256x512_n_01_01_2_wf : ScatterDims.WF S256x50000 S256x512x2 S256x512 [] [0, 1] [0, 1] 2
  dot_S256x2048_S1024x2048_S256x1024_1_1_0_0_n_n_wf : DotDims.WF S256x2048 S1024x2048 S256x1024 [1] [1] [0] [0] [] []
  dot_S256x1024_S512x1024_S256x512_1_1_0_0_n_n_wf : DotDims.WF S256x1024 S512x1024 S256x512 [1] [1] [0] [0] [] []
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x51200.size a
  hwx0_0 : ∀ i : grid0.Coords, EltTy.bits .f32 = 32 ∨ (Rect.block (s := S256x51200) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x51200.size a
  hwx0_1 : ∀ i : grid0.Coords, EltTy.bits .f32 = 32 ∨ (Rect.block (s := S1024x51200) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)

variable [Facts₀]

def scatter_S256x50000_S256x512x2_S256x512_n_01_01_2 : ScatterDims S256x50000 S256x512x2 S256x512 where
  updateWindowDims := []
  insertedWindowDims := [0, 1]
  scatterDimsToOperandDims := [0, 1]
  indexVectorDim := 2
  wf := scatter_S256x50000_S256x512x2_S256x512_n_01_01_2_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_v19) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x512 : Shape := ⟨2, ![256, 512]⟩
abbrev S1024x50000 : Shape := ⟨2, ![1024, 50000]⟩
abbrev S1024 : Shape := ⟨1, ![1024]⟩
abbrev S512x1024 : Shape := ⟨2, ![512, 1024]⟩
abbrev S512 : Shape := ⟨1, ![512]⟩
abbrev S256 : Shape := ⟨1, ![256]⟩
abbrev S256x1 : Shape := ⟨2, ![256, 1]⟩
abbrev S_ : Shape := ⟨0, ![]⟩
abbrev S256x50000 : Shape := ⟨2, ![256, 50000]⟩
abbrev S256x512x1 : Shape := ⟨3, ![256, 512, 1]⟩
abbrev S256x512x2 : Shape := ⟨3, ![256, 512, 2]⟩
abbrev S50000x1024 : Shape := ⟨2, ![50000, 1024]⟩
abbrev S256x1024 : Shape := ⟨2, ![256, 1024]⟩
abbrev S1x1024 : Shape := ⟨2, ![1, 1024]⟩
abbrev S1024x512 : Shape := ⟨2, ![1024, 512]⟩
abbrev S1x512 : Shape := ⟨2, ![1, 512]⟩
abbrev S512x256 : Shape := ⟨2, ![512, 256]⟩
abbrev S256x256 : Shape := ⟨2, ![256, 256]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S1024x50000, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256, .i32⟩
  | .hbm, ⟨8, _⟩ => ⟨S256x1, .i32⟩
  | .hbm, ⟨9, _⟩ => ⟨S_, .f32⟩
  | .hbm, ⟨10, _⟩ => ⟨S256x50000, .f32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x512, .i32⟩
  | .hbm, ⟨20, _⟩ => ⟨S256x512, .i1⟩
  | .hbm, ⟨21, _⟩ => ⟨S_, .i32⟩
  | .hbm, ⟨22, _⟩ => ⟨S256x512, .i32⟩
  | .hbm, ⟨23, _⟩ => ⟨S256x512, .i32⟩
  | .hbm, ⟨24, _⟩ => ⟨S256x512, .i32⟩
  | .hbm, ⟨25, _⟩ => ⟨S256x512, .i32⟩
  | .hbm, ⟨26, _⟩ => ⟨S256x512x1, .i32⟩
  | .hbm, ⟨27, _⟩ => ⟨S256x512x1, .i32⟩
  | .hbm, ⟨28, _⟩ => ⟨S256x512x2, .i32⟩
  | .hbm, ⟨29, _⟩ => ⟨S_, .f32⟩
  | .hbm, ⟨30, _⟩ => ⟨S256x512, .f32⟩
  | .hbm, ⟨31, _⟩ => ⟨S256x50000, .f32⟩
  | .hbm, ⟨32, _⟩ => ⟨S50000x1024, .f32⟩
  | .hbm, ⟨33, _⟩ => ⟨S256x1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S1024x512, .f32⟩
  | .hbm, ⟨41, _⟩ => ⟨S256x512, .f32⟩
  | .hbm, ⟨42, _⟩ => ⟨S1x512, .f32⟩
  | .hbm, ⟨43, _⟩ => ⟨S256x512, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S512x256, .f32⟩
  | .hbm, ⟨49, _⟩ => ⟨S256x256, .f32⟩
  | .hbm, ⟨50, _⟩ => ⟨S1x256, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_cst : Ref sig .tc := ⟨.hbm, 53, rfl⟩
abbrev main_call2_v0 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x50000 : S_.BroadcastsInDim S256x50000 (![] : Fin 0 → Fin S256x50000.rank)
  bcast_S_S256x1 : S_.BroadcastsInDim S256x1 (![] : Fin 0 → Fin S256x1.rank)
  bcast_S_S256x512 : S_.BroadcastsInDim S256x512 (![] : Fin 0 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  concatenates_S256x512x1_S256x512x1_S256x512x2_d2 : Shape.Concatenates [S256x512x1, S256x512x1] S256x512x2 2
  transposes_S1024x50000_S50000x1024_1_0 : S1024x50000.Transposes [1, 0] S50000x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  transposes_S512x1024_S1024x512_1_0 : S512x1024.Transposes [1, 0] S1024x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  transposes_S256x512_S512x256_1_0 : S256x512.Transposes [1, 0] S512x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  scatter_S256x50000_S256x512x2_S256x512_n_01_01_2_wf : ScatterDims.WF S256x50000 S256x512x2 S256x512 [] [0, 1] [0, 1] 2
  dot_S256x50000_S50000x1024_S256x1024_1_0_0_1_n_n_wf : DotDims.WF S256x50000 S50000x1024 S256x1024 [1] [0] [0] [1] [] []
  dot_S256x1024_S1024x512_S256x512_1_0_0_1_n_n_wf : DotDims.WF S256x1024 S1024x512 S256x512 [1] [0] [0] [1] [] []
  dot_S256x512_S512x256_S256x256_1_0_0_1_n_n_wf : DotDims.WF S256x512 S512x256 S256x256 [1] [0] [0] [1] [] []

variable [Facts₀]

def scatter_S256x50000_S256x512x2_S256x512_n_01_01_2 : ScatterDims S256x50000 S256x512x2 S256x512 where
  updateWindowDims := []
  insertedWindowDims := [0, 1]
  scatterDimsToOperandDims := [0, 1]
  indexVectorDim := 2
  wf := scatter_S256x50000_S256x512x2_S256x512_n_01_01_2_wf
def dot_S256x50000_S50000x1024_S256x1024_1_0_0_1_n_n : DotDims S256x50000 S50000x1024 S256x1024 where
  lhsContracting := [1]
  rhsContracting := [0]
  lhsNonContracting := [0]
  rhsNonContracting := [1]
  lhsBatch := []
  rhsBatch := []
  wf := dot_S256x50000_S50000x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

class Facts : Prop extends Facts₀ where

variable [Facts]
-- ==== Proof.Spec.lean ====
/-
  A stack of three dense layers with a rectifier after each, on the extended reals, and the one law of sums the
  equivalence needs.

  A dense layer takes an [M, K] matrix `h`, an [N, K] weight matrix `W` (one row per output unit) and a bias row
  `b` of N entries to the [M, N] matrix whose entry (m, n) is `max (∑ k, h (m, k) * W (n, k) + b n) 0`: the product
  h · Wᵀ, the bias added to every row, the rectifier.

  The law: a contraction over K terms may be computed over a longer axis of B · T ≥ K terms, cut into T tiles of B,
  when both factors are continued by zeros past K — the tiles' sums add up to the sum over the long axis
  (re-association only), and past K every term is `0 * 0 = 0`. Nothing here needs a factor to be finite.
-/
import Idealize.ShloMosaic.PureOps.Ideal
import Idealize.ShloMosaic.PureOps.Ideal.Laws
import Idealize.ShloMosaic.Lib.ValueIdx

noncomputable section

open scoped BigOperators

namespace Cert.DenseStack

open Idealize.ShloMosaic Idealize.ShloMosaic.ValueIdx

variable {M K N : ℕ}

/-- Rows against rows: entry (m, n) is the sum over k of `h (m, k) * W (n, k)`, the product h · Wᵀ. -/
def rowsRows (h : FVec Ideal (⟨2, ![M, K]⟩ : Shape) .f32) (W : FVec Ideal (⟨2, ![N, K]⟩ : Shape) .f32) :
    FVec Ideal (⟨2, ![M, N]⟩ : Shape) .f32 :=
  fun j => ∑ k : Fin K, h (ix2 (j 0 : Fin M) k) * W (ix2 (j 1 : Fin N) k)

/-- A bias row added to every row of `a`, then the rectifier (the maximum with the f32 zero). -/
def biasRelu (a : FVec Ideal (⟨2, ![M, N]⟩ : Shape) .f32) (b : FVec Ideal (⟨1, ![N]⟩ : Shape) .f32) :
    FVec Ideal (⟨2, ![M, N]⟩ : Shape) .f32 :=
  fun j => max (a j + b (ix1 (j 1 : Fin N))) (Ideal.ofBits .f32 0x00000000#32)

/-- One dense layer: `max (h · Wᵀ + b) 0`. -/
def dense (h : FVec Ideal (⟨2, ![M, K]⟩ : Shape) .f32) (W : FVec Ideal (⟨2, ![N, K]⟩ : Shape) .f32)
    (b : FVec Ideal (⟨1, ![N]⟩ : Shape) .f32) : FVec Ideal (⟨2, ![M, N]⟩ : Shape) .f32 :=
  biasRelu (rowsRows h W) b

/-- A sum taken tile by tile, T tiles of B consecutive terms, is the sum over the first B · T terms. -/
theorem sum_tiles {β : Type*} [AddCommMonoid β] (f : ℕ → β) (B : ℕ) :
    ∀ T : ℕ, ∑ s ∈ Finset.range T, ∑ k ∈ Finset.range B, f (B * s + k) = ∑ v ∈ Finset.range (B * T), f v
  | 0 => by simp
  | T + 1 => by rw [Finset.sum_range_succ, sum_tiles f B T, Nat.mul_succ, Finset.sum_range_add]

/-- … and when the terms vanish from `n ≤ B · T` on, it is the sum of the first `n` terms. -/
theorem sum_tiles_of_tail_zero {β : Type*} [AddCommMonoid β] (f : ℕ → β) (B T n : ℕ) (hn : n ≤ B * T)
    (hz : ∀ v, n ≤ v → f v = 0) :
    ∑ s ∈ Finset.range T, ∑ k ∈ Finset.range B, f (B * s + k) = ∑ v : Fin n, f v.val := by
  obtain ⟨p, hp⟩ := Nat.exists_eq_add_of_le hn
  rw [sum_tiles, hp, Finset.sum_range_add, Finset.sum_eq_zero (fun x _ => hz (n + x) (Nat.le_add_right n x)), add_zero,
    Finset.sum_range]

/-- Row `p` of a matrix, continued by zeros past its last column. -/
def rowZ (x : FVec Ideal (⟨2, ![M, K]⟩ : Shape) .f32) (p : Fin M) (v : ℕ) : EReal :=
  if h : v < K then x (ix2 p ⟨v, h⟩) else 0

theorem rowZ_of_lt (x : FVec Ideal (⟨2, ![M, K]⟩ : Shape) .f32) (p : Fin M) (v : ℕ) (h : v < K) :
    rowZ x p v = x (ix2 p ⟨v, h⟩) := dif_pos h

theorem rowZ_of_le (x : FVec Ideal (⟨2, ![M, K]⟩ : Shape) .f32) (p : Fin M) (v : ℕ) (h : K ≤ v) :
    rowZ x p v = 0 := dif_neg (Nat.not_lt.mpr h)

/-- THE LAW. The products of two zero-continued rows, summed tile by tile over T tiles of B with `K ≤ B · T`, are the
    contraction over the K true columns: entry (p, q) of h · Wᵀ. -/
theorem tiled_rowsRows (x : FVec Ideal (⟨2, ![M, K]⟩ : Shape) .f32) (W : FVec Ideal (⟨2, ![N, K]⟩ : Shape) .f32)
    (p : Fin M) (q : Fin N) (B T : ℕ) (hK : K ≤ B * T) :
    ∑ s ∈ Finset.range T, ∑ k ∈ Finset.range B, rowZ x p (B * s + k) * rowZ W q (B * s + k)
      = rowsRows x W (ix2 p q) := by
  rw [sum_tiles_of_tail_zero (fun v => rowZ x p v * rowZ W q v) B T K hK
    (fun v hv => by rw [rowZ_of_le x p v hv, zero_mul])]
  unfold rowsRows
  refine Finset.sum_congr rfl fun k _ => ?_
  rw [rowZ_of_lt x p k.val k.isLt, rowZ_of_lt W q k.val k.isLt]
  rfl

end Cert.DenseStack

end
-- ==== Proof.LibPadCols.lean ====
/-
  A host pad that appends columns to a matrix — no low padding, no interior padding, `hi` extra columns on the last
  axis — read at an entry: inside the operand's K columns it is the operand's entry, past them the padding value.
  Over any element type and any extents.
-/
import Idealize.ShloMosaic.Lib.KernelVsHost
import Idealize.ShloMosaic.Lib.ValueIdx

namespace Cert.LibPadCols

open Idealize.ShloMosaic Idealize.ShloMosaic.ValueIdx

/-- Entry (p, v) of an [M, K] matrix padded on the right to [M, K']: the matrix's entry while `v < K`, the padding
    value from column K on. -/
theorem pad_cols_apply {α : Type} {M K K' : ℕ} (hi : ℕ) (x : (⟨2, ![M, K]⟩ : Shape).Idx → α) {u : Shape} (z : u.Idx → α)
    (h : (⟨2, ![M, K]⟩ : Shape).Pads ![0, 0] ![0, hi] ![0, 0] (⟨2, ![M, K']⟩ : Shape)) (hu : 0 < u.numel)
    (p : Fin M) (v : ℕ) (hv : v < K') :
    pad (⟨2, ![M, K']⟩ : Shape) ![0, 0] ![0, hi] ![0, 0] x z h hu (ix2 p ⟨v, hv⟩)
      = if hk : v < K then x (ix2 p ⟨v, hk⟩) else z (Shape.Idx.first hu) := by
  by_cases hk : v < K
  · rw [dif_pos hk]
    refine pad_apply_of_inside _ _ _ x z h hu _ (ix2 p ⟨v, hk⟩) fun a => ?_
    match a with
    | ⟨0, _⟩ => show p.val = 0 + p.val * (0 + 1); omega
    | ⟨1, _⟩ => show v = 0 + v * (0 + 1); omega
  · rw [dif_neg hk]
    refine pad_apply_of_not_inside _ _ _ x z h hu _ (1 : Fin 2) fun hin => hk ?_
    have h3 : (v - 0) / (0 + 1) < K := hin.2.2
    rwa [Nat.sub_zero, Nat.zero_add, Nat.div_one] at h3

end Cert.LibPadCols
-- ==== Proof.Entry.lean ====
/-
  The arrays the kernel's region finds, and its windows' blocks, read at an entry.

  Before the region the host has scattered ones into a zero [256, 50000] array at the positions the index array
  names — the histogram — and appended 1200 columns holding the integer zero converted to float, so the value 0, to it
  and to the first weight matrix: 51200 = 25 · 2048 columns. Row p of either padded array is therefore row p of the
  unpadded one continued by zeros. Window 0 (the padded histogram) and window 1 (the padded weights) step through the
  columns 2048 at a time: entry (p, k) of their block at grid point t is column 2048 · t + k of row p. The other five
  input windows hold a whole argument array at every point.
-/
import proofs.«129739_j11982958756127_1_alg».proof.Proof.Gen.KernelIdeal.Value
import proofs.«129739_j11982958756127_1_alg».proof.Proof.Gen.ReferenceIdeal.Read
import proofs.«129739_j11982958756127_1_alg».proof.Proof.Spec
import proofs.«129739_j11982958756127_1_alg».proof.Proof.LibPadCols
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Entry

open Cert.KernelIdeal Cert.KernelIdeal.Gen Idealize.ShloMosaic.ValueIdx Cert.DenseStack

variable (m : (ℓ : Loc nD τ sig) → Buf (Elt Ideal) ℓ)

/-- The histogram of the index array: the host's scatter of ones into zeros, as a function of the index argument
    (the stage the reference's generated reading names for the same operations). -/
abbrev hist (c : Dev nD) : FVec Ideal (⟨2, ![256, 50000]⟩ : Shape) .f32 :=
  Cert.ReferenceIdeal.Read.val_main_v18 (F := Ideal) (m ((c : Thread nD τ).loc main_arg0))

set_option maxHeartbeats 4000000 in
/-- The padded histogram the region finds. -/
theorem V_bowp (c : Dev nD) :
    (V m c main_v19 : S256x51200.Idx → EReal)
      = pad S256x51200 ![0, 0] ![0, 1200] ![0, 0] (hist m c)
          (sitofp (F := Ideal) .f32 (constantI S_ 32 0#32)) pads_S256x50000_S256x51200_000_012000 h_S_ := by
  dsimp only [V]
  simp only [hostOps0, hostOps0_1, hostOps0_2, hostOps0_3, List.flatten_cons, List.flatten_nil, List.append_nil,
    List.cons_append, List.nil_append]
  after_results
  rfl

/-- The padded first weight matrix the region finds. -/
theorem V_w1p (c : Dev nD) :
    (V m c main_v20 : S1024x51200.Idx → EReal)
      = pad S1024x51200 ![0, 0] ![0, 1200] ![0, 0] (m ((c : Thread nD τ).loc main_arg1))
          (sitofp (F := Ideal) .f32 (constantI S_ 32 0#32)) pads_S1024x50000_S1024x51200_000_012000 h_S_ := by
  dsimp only [V]
  simp only [hostOps0, hostOps0_1, hostOps0_2, hostOps0_3, List.flatten_cons, List.flatten_nil, List.append_nil,
    List.cons_append, List.nil_append]
  after_results
  rfl

/-- The padding value: the integer zero converted to float is the real number zero. -/
theorem padValue : sitofp (F := Ideal) .f32 (constantI S_ 32 0#32) (Shape.Idx.first h_S_) = 0 := by
  show (((0#32 : BitVec 32).toInt : ℝ) : EReal) = 0
  rw [show (0#32 : BitVec 32).toInt = 0 from by decide]
  simp

/-- Row p of the padded histogram is row p of the histogram continued by zeros. -/
theorem bowp_apply (c : Dev nD) (p : Fin 256) (v : ℕ) (hv : v < 51200) :
    (V m c main_v19 : S256x51200.Idx → EReal) (ix2 p ⟨v, hv⟩) = rowZ (hist m c) p v := by
  rw [V_bowp]
  refine (Cert.LibPadCols.pad_cols_apply 1200 _ _ _ _ p v hv).trans ?_
  by_cases hk : v < 50000
  · rw [dif_pos hk, rowZ_of_lt _ p v hk]
  · rw [dif_neg hk, rowZ_of_le _ p v (Nat.le_of_not_lt hk)]; exact padValue

/-- Row q of the padded weights is row q of the weights continued by zeros. -/
theorem w1p_apply (c : Dev nD) (q : Fin 1024) (v : ℕ) (hv : v < 51200) :
    (V m c main_v20 : S1024x51200.Idx → EReal) (ix2 q ⟨v, hv⟩)
      = rowZ (M := 1024) (K := 50000) (m ((c : Thread nD τ).loc main_arg1)) q v := by
  rw [V_w1p]
  refine (Cert.LibPadCols.pad_cols_apply 1200 _ _ _ _ q v hv).trans ?_
  by_cases hk : v < 50000
  · rw [dif_pos hk, rowZ_of_lt _ q v hk]
  · rw [dif_neg hk, rowZ_of_le _ q v (Nat.le_of_not_lt hk)]; exact padValue

/-! ## The windows' blocks -/

theorem idx0 : ∀ t : Fin cfg0.N, win0_0.index t 0 = 0 ∧ win0_0.index t 1 = t.val :=
  (by decide +kernel : ∀ t : Fin grid0.N, win0_0.index t 0 = 0 ∧ win0_0.index t 1 = t.val)

theorem idx1 : ∀ t : Fin cfg0.N, win0_1.index t 0 = 0 ∧ win0_1.index t 1 = t.val :=
  (by decide +kernel : ∀ t : Fin grid0.N, win0_1.index t 0 = 0 ∧ win0_1.index t 1 = t.val)

/-- Tile t of the padded histogram: entry (p, k) is column 2048 · t + k of row p. -/
theorem tile0_apply (c : Dev nD) (t : Fin cfg0.N) (p : Fin 256) (k : Fin 2048) :
    (iblk m c 0 t : Vec Ideal S256x2048 .f32) (ix2 p k) = rowZ (hist m c) p (2048 * t.val + k.val) := by
  have hN : t.val < 25 := lt_of_lt_of_eq t.isLt (show cfg0.N = 25 from N_0)
  have hv : 2048 * t.val + k.val < 51200 := by have := k.isLt; omega
  rw [← bowp_apply m c p _ hv]
  unfold iblk
  rw [View.read_apply]
  show V m c main_v19 _ = V m c main_v19 _
  congr 1
  funext a; apply Fin.ext
  match a with
  | ⟨0, _⟩ => show win0_0.index t 0 * 256 + 1 * p.val = p.val; rw [(idx0 t).1]; omega
  | ⟨1, _⟩ => show win0_0.index t 1 * 2048 + 1 * k.val = 2048 * t.val + k.val; rw [(idx0 t).2]; omega

/-- Tile t of the padded weights: entry (q, k) is column 2048 · t + k of row q. -/
theorem tile1_apply (c : Dev nD) (t : Fin cfg0.N) (q : Fin 1024) (k : Fin 2048) :
    (iblk m c 1 t : Vec Ideal S1024x2048 .f32) (ix2 q k)
      = rowZ (M := 1024) (K := 50000) (m ((c : Thread nD τ).loc main_arg1)) q (2048 * t.val + k.val) := by
  have hN : t.val < 25 := lt_of_lt_of_eq t.isLt (show cfg0.N = 25 from N_0)
  have hv : 2048 * t.val + k.val < 51200 := by have := k.isLt; omega
  rw [← w1p_apply m c q _ hv]
  unfold iblk
  rw [View.read_apply]
  show V m c main_v20 _ = V m c main_v20 _
  congr 1
  funext a; apply Fin.ext
  match a with
  | ⟨0, _⟩ => show win0_1.index t 0 * 1024 + 1 * q.val = q.val; rw [(idx1 t).1]; omega
  | ⟨1, _⟩ => show win0_1.index t 1 * 2048 + 1 * k.val = 2048 * t.val + k.val; rw [(idx1 t).2]; omega

theorem idx2 : ∀ t : Fin cfg0.N, win0_2.index t 0 = 0 ∧ win0_2.index t 1 = 0 :=
  (by decide +kernel : ∀ t : Fin grid0.N, win0_2.index t 0 = 0 ∧ win0_2.index t 1 = 0)

/-- Window 2's block is the whole of its array at every point, and no host operation wrote that array. -/
theorem blk2_eq (c : Dev nD) (t : Fin cfg0.N) :
    (iblk m c 2 t : Vec Ideal S512x1024 .f32) = m ((c : Thread nD τ).loc main_arg3) := by
  funext y
  refine Eq.trans ?_ (congrFun (V_main_arg3 m c) y)
  unfold iblk
  rw [View.read_apply]
  show V m c main_arg3 _ = V m c main_arg3 y
  congr 1
  funext a; apply Fin.ext
  match a with
  | ⟨0, _⟩ => show win0_2.index t 0 * 512 + 1 * (y 0).val = (y 0).val; rw [(idx2 t).1]; omega
  | ⟨1, _⟩ => show win0_2.index t 1 * 1024 + 1 * (y 1).val = (y 1).val; rw [(idx2 t).2]; omega

theorem idx3 : ∀ t : Fin cfg0.N, win0_3.index t 0 = 0 ∧ win0_3.index t 1 = 0 :=
  (by decide +kernel : ∀ t : Fin grid0.N, win0_3.index t 0 = 0 ∧ win0_3.index t 1 = 0)

/-- Window 3's block is the whole of its array at every point, and no host operation wrote that array. -/
theorem blk3_eq (c : Dev nD) (t : Fin cfg0.N) :
    (iblk m c 3 t : Vec Ideal S256x512 .f32) = m ((c : Thread nD τ).loc main_arg5) := by
  funext y
  refine Eq.trans ?_ (congrFun (V_main_arg5 m c) y)
  unfold iblk
  rw [View.read_apply]
  show V m c main_arg5 _ = V m c main_arg5 y
  congr 1
  funext a; apply Fin.ext
  match a with
  | ⟨0, _⟩ => show win0_3.index t 0 * 256 + 1 * (y 0).val = (y 0).val; rw [(idx3 t).1]; omega
  | ⟨1, _⟩ => show win0_3.index t 1 * 512 + 1 * (y 1).val = (y 1).val; rw [(idx3 t).2]; omega

theorem idx4 : ∀ t : Fin cfg0.N, win0_4.index t 0 = 0 :=
  (by decide +kernel : ∀ t : Fin grid0.N, win0_4.index t 0 = 0)

/-- Window 4's block is the whole of its array at every point, and no host operation wrote that array. -/
theorem blk4_eq (c : Dev nD) (t : Fin cfg0.N) :
    (iblk m c 4 t : Vec Ideal S1024 .f32) = m ((c : Thread nD τ).loc main_arg2) := by
  funext y
  refine Eq.trans ?_ (congrFun (V_main_arg2 m c) y)
  unfold iblk
  rw [View.read_apply]
  show V m c main_arg2 _ = V m c main_arg2 y
  congr 1
  funext a; apply Fin.ext
  match a with
  | ⟨0, _⟩ => show win0_4.index t 0 * 1024 + 1 * (y 0).val = (y 0).val; rw [idx4 t]; omega

theorem idx5 : ∀ t : Fin cfg0.N, win0_5.index t 0 = 0 :=
  (by decide +kernel : ∀ t : Fin grid0.N, win0_5.index t 0 = 0)

/-- Window 5's block is the whole of its array at every point, and no host operation wrote that array. -/
theorem blk5_eq (c : Dev nD) (t : Fin cfg0.N) :
    (iblk m c 5 t : Vec Ideal S512 .f32) = m ((c : Thread nD τ).loc main_arg4) := by
  funext y
  refine Eq.trans ?_ (congrFun (V_main_arg4 m c) y)
  unfold iblk
  rw [View.read_apply]
  show V m c main_arg4 _ = V m c main_arg4 y
  congr 1
  funext a; apply Fin.ext
  match a with
  | ⟨0, _⟩ => show win0_5.index t 0 * 512 + 1 * (y 0).val = (y 0).val; rw [idx5 t]; omega

theorem idx6 : ∀ t : Fin cfg0.N, win0_6.index t 0 = 0 :=
  (by decide +kernel : ∀ t : Fin grid0.N, win0_6.index t 0 = 0)

/-- Window 6's block is the whole of its array at every point, and no host operation wrote that array. -/
theorem blk6_eq (c : Dev nD) (t : Fin cfg0.N) :
    (iblk m c 6 t : Vec Ideal S256 .f32) = m ((c : Thread nD τ).loc main_arg6) := by
  funext y
  refine Eq.trans ?_ (congrFun (V_main_arg6 m c) y)
  unfold iblk
  rw [View.read_apply]
  show V m c main_arg6 _ = V m c main_arg6 y
  congr 1
  funext a; apply Fin.ext
  match a with
  | ⟨0, _⟩ => show win0_6.index t 0 * 256 + 1 * (y 0).val = (y 0).val; rw [idx6 t]; omega

end Cert.KernelIdeal.Entry

end
-- ==== Proof.Pieces.lean ====
/-
  What one run of the kernel body leaves behind, as values. The body keeps an accumulator across the grid: at the
  first point it is zeroed and read back, at every point the product of the point's two column tiles is added to it,
  and at the last point the three layers are computed from it into the output block. So, whatever the float
  instance: the accumulator after a point is the tile-product payload applied to the two tiles and to what it held
  before (the zero splat at the first point), and the output block after the last point is the layers' payload
  applied to that accumulator and to the weight and bias blocks.
-/
import proofs.«129739_j11982958756127_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle point: the accumulator it found, plus the product of the point's tiles. -/
theorem scratch_B (c : Dev nD) (i : grid0.Coords) (a1 : Memref sig .tc .vmem S256x2048 .f32) (h1 : a1.IsWhole) (a2 : Memref sig .tc .vmem S1024x2048 .f32) (h2 : a2.IsWhole) (a3 : Memref sig .tc .vmem S512x1024 .f32) (h3 : a3.IsWhole) (a4 : Memref sig .tc .vmem S256x512 .f32) (h4 : a4.IsWhole) (a5 : Memref sig .tc .vmem S1024 .f32) (h5 : a5.IsWhole) (a6 : Memref sig .tc .vmem S512 .f32) (h6 : a6.IsWhole) (a7 : Memref sig .tc .vmem S256 .f32) (h7 : a7.IsWhole) (a8 : Memref sig .tc .vmem S256x256 .f32) (h8 : a8.IsWhole) (a9 : Memref sig .tc .vmem S256x1024 .f32) (h9 : a9.IsWhole) (hc0 : ¬cond0_0 i) (hc1 : ¬cond0_1 i) (x0 : Vec F S256x2048 .f32) (x1 : Vec F S1024x2048 .f32) (x2 : Vec F S512x1024 .f32) (x3 : Vec F S256x512 .f32) (x4 : Vec F S1024 .f32) (x5 : Vec F S512 .f32) (x6 : Vec F S256 .f32) (xs0 : Vec F S256x1024 .f32) :
    sout0_B_0 c i a1 h1 a2 h2 a3 h3 a4 h4 a5 h5 a6 h6 a7 h7 a8 h8 a9 h9 hc0 hc1 x0 x1 x2 x3 x4 x5 x6 xs0 = k0_pay2 x0 x1 xs0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 x6 xs0)]
  unfold kernelRun0_B
  dsimp only
  rw [View.canon_unit_zero hz2]
  simp only [View.readAt_eq_ld, h1.read_unread, h2.read_unread, h3.read_unread, h4.read_unread, h5.read_unread, h6.read_unread, h7.read_unread, h9.read_unread,
    View.ld_unit_zero (S := S256x2048) hz2, View.ld_unit_zero (S := S1024x2048) hz2, View.ld_unit_zero (S := S256x1024) hz2,
    View.ld_unit_zero (S := S512x1024) hz2, View.ld_unit_zero (S := S256x512) hz2, View.ld_unit_zero (S := S1024) hz1,
    View.ld_unit_zero (S := S512) hz1, View.ld_unit_zero (S := S256) hz1]

/-- The last point: the same for the accumulator, -/
theorem scratch_C (c : Dev nD) (i : grid0.Coords) (a1 : Memref sig .tc .vmem S256x2048 .f32) (h1 : a1.IsWhole) (a2 : Memref sig .tc .vmem S1024x2048 .f32) (h2 : a2.IsWhole) (a3 : Memref sig .tc .vmem S512x1024 .f32) (h3 : a3.IsWhole) (a4 : Memref sig .tc .vmem S256x512 .f32) (h4 : a4.IsWhole) (a5 : Memref sig .tc .vmem S1024 .f32) (h5 : a5.IsWhole) (a6 : Memref sig .tc .vmem S512 .f32) (h6 : a6.IsWhole) (a7 : Memref sig .tc .vmem S256 .f32) (h7 : a7.IsWhole) (a8 : Memref sig .tc .vmem S256x256 .f32) (h8 : a8.IsWhole) (a9 : Memref sig .tc .vmem S256x1024 .f32) (h9 : a9.IsWhole) (hc0 : ¬cond0_0 i) (hc1 : cond0_1 i) (x0 : Vec F S256x2048 .f32) (x1 : Vec F S1024x2048 .f32) (x2 : Vec F S512x1024 .f32) (x3 : Vec F S256x512 .f32) (x4 : Vec F S1024 .f32) (x5 : Vec F S512 .f32) (x6 : Vec F S256 .f32) (xs0 : Vec F S256x1024 .f32) :
    sout0_C_0 c i a1 h1 a2 h2 a3 h3 a4 h4 a5 h5 a6 h6 a7 h7 a8 h8 a9 h9 hc0 hc1 x0 x1 x2 x3 x4 x5 x6 xs0 = k0_pay2 x0 x1 xs0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 x5 x6 xs0)]
  unfold kernelRun0_C
  dsimp only
  sl_unfold_words
  rw [View.canon_unit_zero (S := S256x1024) hz2]
  simp only [View.readAt_eq_ld, h1.read_unread, h2.read_unread, h3.read_unread, h4.read_unread, h5.read_unread, h6.read_unread, h7.read_unread, h9.read_unread,
    View.ld_unit_zero (S := S256x2048) hz2, View.ld_unit_zero (S := S1024x2048) hz2, View.ld_unit_zero (S := S256x1024) hz2,
    View.ld_unit_zero (S := S512x1024) hz2, View.ld_unit_zero (S := S256x512) hz2, View.ld_unit_zero (S := S1024) hz1,
    View.ld_unit_zero (S := S512) hz1, View.ld_unit_zero (S := S256) hz1]

/-- and the output block holds the three layers of the accumulator just stored (read back through the store). -/
theorem out_C (c : Dev nD) (i : grid0.Coords) (a1 : Memref sig .tc .vmem S256x2048 .f32) (h1 : a1.IsWhole) (a2 : Memref sig .tc .vmem S1024x2048 .f32) (h2 : a2.IsWhole) (a3 : Memref sig .tc .vmem S512x1024 .f32) (h3 : a3.IsWhole) (a4 : Memref sig .tc .vmem S256x512 .f32) (h4 : a4.IsWhole) (a5 : Memref sig .tc .vmem S1024 .f32) (h5 : a5.IsWhole) (a6 : Memref sig .tc .vmem S512 .f32) (h6 : a6.IsWhole) (a7 : Memref sig .tc .vmem S256 .f32) (h7 : a7.IsWhole) (a8 : Memref sig .tc .vmem S256x256 .f32) (h8 : a8.IsWhole) (a9 : Memref sig .tc .vmem S256x1024 .f32) (h9 : a9.IsWhole) (hc0 : ¬cond0_0 i) (hc1 : cond0_1 i) (x0 : Vec F S256x2048 .f32) (x1 : Vec F S1024x2048 .f32) (x2 : Vec F S512x1024 .f32) (x3 : Vec F S256x512 .f32) (x4 : Vec F S1024 .f32) (x5 : Vec F S512 .f32) (x6 : Vec F S256 .f32) (xs0 : Vec F S256x1024 .f32) :
    out0_C_7 c i a1 h1 a2 h2 a3 h3 a4 h4 a5 h5 a6 h6 a7 h7 a8 h8 a9 h9 hc0 hc1 x0 x1 x2 x3 x4 x5 x6 xs0 = k0_pay3 (k0_pay2 x0 x1 xs0) x4 x2 x5 x3 x6 := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 x6 xs0)]
  unfold kernelRun0_C
  dsimp only
  sl_unfold_words
  rw [View.canon_unit_zero (S := S256x256) hz2, View.readCov_unit_zero (S := S256x1024) _ hz2]
  simp only [View.readAt_eq_ld, h1.read_unread, h2.read_unread, h3.read_unread, h4.read_unread, h5.read_unread, h6.read_unread, h7.read_unread, h9.read_unread,
    View.ld_unit_zero (S := S256x2048) hz2, View.ld_unit_zero (S := S1024x2048) hz2, View.ld_unit_zero (S := S256x1024) hz2,
    View.ld_unit_zero (S := S512x1024) hz2, View.ld_unit_zero (S := S256x512) hz2, View.ld_unit_zero (S := S1024) hz1,
    View.ld_unit_zero (S := S512) hz1, View.ld_unit_zero (S := S256) hz1]

/-- The first point: the zero splat is stored, read back, and the product of the point's tiles added to it. -/
theorem scratch_A (c : Dev nD) (i : grid0.Coords) (a1 : Memref sig .tc .vmem S256x2048 .f32) (h1 : a1.IsWhole) (a2 : Memref sig .tc .vmem S1024x2048 .f32) (h2 : a2.IsWhole) (a3 : Memref sig .tc .vmem S512x1024 .f32) (h3 : a3.IsWhole) (a4 : Memref sig .tc .vmem S256x512 .f32) (h4 : a4.IsWhole) (a5 : Memref sig .tc .vmem S1024 .f32) (h5 : a5.IsWhole) (a6 : Memref sig .tc .vmem S512 .f32) (h6 : a6.IsWhole) (a7 : Memref sig .tc .vmem S256 .f32) (h7 : a7.IsWhole) (a8 : Memref sig .tc .vmem S256x256 .f32) (h8 : a8.IsWhole) (a9 : Memref sig .tc .vmem S256x1024 .f32) (h9 : a9.IsWhole) (hc0 : cond0_0 i) (hc1 : ¬cond0_1 i) (x0 : Vec F S256x2048 .f32) (x1 : Vec F S1024x2048 .f32) (x2 : Vec F S512x1024 .f32) (x3 : Vec F S256x512 .f32) (x4 : Vec F S1024 .f32) (x5 : Vec F S512 .f32) (x6 : Vec F S256 .f32) :
    sout0_A_0 c i a1 h1 a2 h2 a3 h3 a4 h4 a5 h5 a6 h6 a7 h7 a8 h8 a9 h9 hc0 hc1 x0 x1 x2 x3 x4 x5 x6 = k0_pay2 x0 x1 (k0_pay1 (F := F)) := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_cons_unit_zero (S := S256x1024) hz2, View.readCov_unit_zero (S := S256x1024) _ hz2]
  simp only [View.readAt_eq_ld, h1.read_unread, h2.read_unread, h3.read_unread, h4.read_unread, h5.read_unread, h6.read_unread, h7.read_unread, h9.read_unread,
    View.ld_unit_zero (S := S256x2048) hz2, View.ld_unit_zero (S := S1024x2048) hz2, View.ld_unit_zero (S := S256x1024) hz2,
    View.ld_unit_zero (S := S512x1024) hz2, View.ld_unit_zero (S := S256x512) hz2, View.ld_unit_zero (S := S1024) hz1,
    View.ld_unit_zero (S := S512) hz1, View.ld_unit_zero (S := S256) hz1]

end Cert.KernelIdeal.Pieces

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibRowsRows.lean ====
/-
  A 2-D matrix product into the zero accumulator with the LAST axis of both operands contracted — [M, K] against [N, K],
  rows by rows — read at an output entry on the extended reals: entry (m, n) is the sum over k of lhs (m, k) * rhs (n, k).
  This is the product of a matrix with the transpose of another, as a projection x · Wᵀ or a score matrix q · kᵀ is
  written. The result is [M, N]. The dimension record is the one built from the literal axis lists; its well-formedness
  proof is a parameter. Over any extents M, K, N.
-/
import Idealize.ShloMosaic.PureOps.Ideal.Laws
import Idealize.ShloMosaic.Lib.ValueIdx
import proofs.«129739_j11982958756127_1_alg».proof.Proof.LibContractSum

namespace Cert.LibRowsRows

open Idealize.ShloMosaic Idealize.ShloMosaic.ValueIdx

variable {M K N : ℕ} {φ₁ φ₂ : FTy}

/-- Rows by rows: entry (m, n) is the sum over k of lhs (m, k) * rhs (n, k). -/
theorem rows_rows
    (wf : DotDims.WF (⟨2, ![M, K]⟩ : Shape) (⟨2, ![N, K]⟩ : Shape) (⟨2, ![M, N]⟩ : Shape)
      ([1] : List (Fin 2)) ([1] : List (Fin 2)) ([0] : List (Fin 2)) ([0] : List (Fin 2)) [] [])
    (prec : Option ContractPrecision) (lhs : FVec Ideal (⟨2, ![M, K]⟩ : Shape) φ₁) (rhs : FVec Ideal (⟨2, ![N, K]⟩ : Shape) φ₂)
    (m : Fin M) (n : Fin N) :
    FloatOps.matmul (⟨[1], [1], [0], [0], [], [], wf⟩ : DotDims (⟨2, ![M, K]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 m k) * rhs (ix2 n k) := by
  refine Cert.LibContractSum.matmul_zero_sum _ prec K rfl rfl lhs rhs (ix2 m n) (fun k => ix2 m k) (fun k => ix2 n k)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibRowsRows
-- ==== Proof.Layer.lean ====
/-
  A dense layer in the form a vector unit computes it, read on the extended reals: both operands cut to a
  narrower float format (no change of value there), the product of rows against rows into a zero accumulator, the
  bias row of N entries laid out as [1, N] and repeated down the M rows, and the maximum with a splat of the f32 zero.
  Entry by entry that is `max (∑ k, h (m, k) * W (n, k) + b n) 0`: the dense layer of the specification.
-/
import proofs.«129739_j11982958756127_1_alg».proof.Proof.Spec
import proofs.«129739_j11982958756127_1_alg».proof.Proof.LibRowsRows
import Idealize.ShloMosaic.Lib.ValueLayout
import Idealize.ShloMosaic.Lib.Pipeline.Value

noncomputable section

open scoped BigOperators

namespace Cert.DenseStack

open Idealize.ShloMosaic Idealize.ShloMosaic.ValueIdx

variable {M K N : ℕ}

/-- A row of N entries cast to [1, N] and broadcast to [M, N] holds, at (p, q), the row's entry q. -/
theorem biasRow_apply (b : FVec Ideal (⟨1, ![N]⟩ : Shape) .f32)
    (hc : (⟨1, ![N]⟩ : Shape).ShapeCasts ⟨2, ![1, N]⟩) (hb : (⟨2, ![1, N]⟩ : Shape).Broadcasts ⟨2, ![M, N]⟩)
    (p : Fin M) (q : Fin N) :
    broadcastTo (⟨2, ![M, N]⟩ : Shape) (shapeCast (⟨2, ![1, N]⟩ : Shape) b hc) hb (ix2 p q) = b (ix1 q) := by
  rw [broadcastTo_1b_ab_apply, shapeCast_a_1a_apply]

/-- The bias row added and the maximum with the zero splat taken, as printed: `biasRelu`. -/
theorem printed_biasRelu (a : FVec Ideal (⟨2, ![M, N]⟩ : Shape) .f32) (b : FVec Ideal (⟨1, ![N]⟩ : Shape) .f32)
    (hc : (⟨1, ![N]⟩ : Shape).ShapeCasts ⟨2, ![1, N]⟩) (hb : (⟨2, ![1, N]⟩ : Shape).Broadcasts ⟨2, ![M, N]⟩) :
    maximumf (addf a (broadcastTo (⟨2, ![M, N]⟩ : Shape) (shapeCast (⟨2, ![1, N]⟩ : Shape) b hc) hb))
        (broadcast (⟨2, ![M, N]⟩ : Shape) (Scalar.ofBits (F := Ideal) .f32 0x00000000#32))
      = biasRelu a b := by
  funext j
  obtain ⟨p, q, rfl⟩ : ∃ (p : Fin M) (q : Fin N), j = ix2 p q := ⟨j 0, j 1, eq_ix2 j⟩
  show max (a (ix2 p q) + broadcastTo (⟨2, ![M, N]⟩ : Shape) (shapeCast (⟨2, ![1, N]⟩ : Shape) b hc) hb (ix2 p q)) _
    = max (a (ix2 p q) + b (ix1 q)) _
  rw [biasRow_apply]
  rfl

/-- The whole layer as printed: `dense`. -/
theorem printed_dense
    (wf : DotDims.WF (⟨2, ![M, K]⟩ : Shape) (⟨2, ![N, K]⟩ : Shape) (⟨2, ![M, N]⟩ : Shape)
      ([1] : List (Fin 2)) ([1] : List (Fin 2)) ([0] : List (Fin 2)) ([0] : List (Fin 2)) [] [])
    (h : FVec Ideal (⟨2, ![M, K]⟩ : Shape) .f32) (W : FVec Ideal (⟨2, ![N, K]⟩ : Shape) .f32)
    (b : FVec Ideal (⟨1, ![N]⟩ : Shape) .f32) (hlt : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf
          (matmul (⟨[1], [1], [0], [0], [], [], wf⟩ : DotDims (⟨2, ![M, K]⟩ : Shape) (⟨2, ![N, K]⟩ : Shape) (⟨2, ![M, N]⟩ : Shape))
            none (truncf .bf16 h hlt) (truncf .bf16 W hlt) (constant (⟨2, ![M, N]⟩ : Shape) .f32 0x00000000#32))
          (broadcastTo (⟨2, ![M, N]⟩ : Shape) (shapeCast (⟨2, ![1, N]⟩ : Shape) b hc) hb))
        (broadcast (⟨2, ![M, N]⟩ : Shape) (Scalar.ofBits (F := Ideal) .f32 0x00000000#32))
      = dense h W b := by
  rw [printed_biasRelu]
  unfold dense
  refine congrArg (fun a => biasRelu a b) (funext fun j => ?_)
  obtain ⟨p, q, rfl⟩ : ∃ (p : Fin M) (q : Fin N), j = ix2 p q := ⟨j 0, j 1, eq_ix2 j⟩
  exact Cert.LibRowsRows.rows_rows wf none (truncf .bf16 h hlt) (truncf .bf16 W hlt) p q

end Cert.DenseStack

end
-- ==== Proof.Payloads.lean ====
/-
  The kernel body's three stored values, read on the extended reals. The reset value is the zero splat. The value
  stored at every point is the accumulator plus the product, rows against rows, of the point's tile of the histogram
  with the point's tile of the first weight matrix (both cut to a narrower format first: no change of value here).
  The value stored at the last point is three dense layers in a row, the first taking its products from the
  accumulator: `max (acc + b₁) 0`, then `dense · W₂ b₂`, then `dense · W₃ b₃`.
-/
import proofs.«129739_j11982958756127_1_alg».proof.Proof.Gen.KernelIdeal.Skeleton
import proofs.«129739_j11982958756127_1_alg».proof.Proof.Layer

noncomputable section

open scoped BigOperators

namespace Cert.KernelIdeal.Payloads

open Idealize.ShloMosaic Idealize.ShloMosaic.ValueIdx Cert.KernelIdeal Cert.KernelIdeal.Gen Cert.DenseStack

/-- The reset value: the f32 zero at every entry. -/
theorem pay1_apply (j : S256x1024.Idx) : k0_pay1 (F := Ideal) j = Ideal.ofBits .f32 0x00000000#32 := by
  unfold k0_pay1
  simp only [shapeCast_self]
  rfl

/-- The accumulation step: entry (p, q) gains the products of row p of the histogram tile with row q of the weight tile. -/
theorem pay2_apply (x0 : Vec Ideal S256x2048 .f32) (x1 : Vec Ideal S1024x2048 .f32) (acc : Vec Ideal S256x1024 .f32)
    (p : Fin 256) (q : Fin 1024) :
    k0_pay2 (F := Ideal) x0 x1 acc (ix2 p q) = acc (ix2 p q) + ∑ k : Fin 2048, x0 (ix2 p k) * x1 (ix2 q k) := by
  unfold k0_pay2
  simp only [shapeCast_self]
  refine congrArg (acc (ix2 p q) + ·) ?_
  exact Cert.LibRowsRows.rows_rows _ none (truncf .bf16 x0 _) (truncf .bf16 x1 _) p q

/-- The epilogue: three dense layers, the first over the accumulated products. -/
theorem pay3_eq (acc : Vec Ideal S256x1024 .f32) (b1 : Vec Ideal S1024 .f32) (W2 : Vec Ideal S512x1024 .f32)
    (b2 : Vec Ideal S512 .f32) (W3 : Vec Ideal S256x512 .f32) (b3 : Vec Ideal S256 .f32) :
    k0_pay3 (F := Ideal) acc b1 W2 b2 W3 b3 = dense (dense (biasRelu acc b1) W2 b2) W3 b3 := by
  unfold k0_pay3
  dsimp only
  refine (printed_dense _ _ _ _ _ _ _).trans (congrArg (fun h => dense h W3 b3) ?_)
  refine (printed_dense _ _ _ _ _ _ _).trans (congrArg (fun h => dense h W2 b2) ?_)
  exact printed_biasRelu _ _ _ _

end Cert.KernelIdeal.Payloads

end
-- ==== Proof.Accumulate.lean ====
/-
  The accumulator across the grid. Write T s (p, q) for the product of tile s: the sum over the tile's 2048 columns
  of row p of the zero-continued histogram times row q of the zero-continued first weight matrix. Every point adds
  its tile's product to the accumulator, and the first point starts from the zero splat, so after point n the
  accumulator is `0 + (T 0 + … + T n)` — by induction on the point, not by listing the 25 points. The last point
  stores `0 + (T 0 + … + T 24)`, and that is the whole contraction over the 50000 true columns: the tiles re-associate
  to one sum over the 51200 padded columns, whose last 1200 terms are `0 * 0`.
-/
import proofs.«129739_j11982958756127_1_alg».proof.Proof.Entry
import proofs.«129739_j11982958756127_1_alg».proof.Proof.Pieces
import proofs.«129739_j11982958756127_1_alg».proof.Proof.Payloads

noncomputable section

open scoped BigOperators

open Idealize.ShloMosaic Idealize.ShloMosaic.TcCoe Idealize.SL.Sem

namespace Cert.KernelIdeal.Accumulate

open Cert.KernelIdeal Cert.KernelIdeal.Gen Idealize.ShloMosaic.ValueIdx Cert.DenseStack
open Cert.KernelIdeal.Entry Cert.KernelIdeal.Pieces Cert.KernelIdeal.Payloads

variable (m : (ℓ : Loc nD τ sig) → Buf (Elt Ideal) ℓ)

/-- The product of tile `s` at accumulator entry `j`: the tile's 2048 columns of the two zero-continued rows. -/
def tileProd (bow : FVec Ideal (⟨2, ![256, 50000]⟩ : Shape) .f32) (W1 : FVec Ideal (⟨2, ![1024, 50000]⟩ : Shape) .f32)
    (s : ℕ) (j : S256x1024.Idx) : EReal :=
  ∑ k ∈ Finset.range 2048, rowZ bow (j 0 : Fin 256) (2048 * s + k) * rowZ W1 (j 1 : Fin 1024) (2048 * s + k)

/-- One step, over any two blocks that are tile `s` of the zero-continued rows: the stored value is the accumulator
    plus the tile's product. -/
theorem step (bow : FVec Ideal (⟨2, ![256, 50000]⟩ : Shape) .f32) (W1 : FVec Ideal (⟨2, ![1024, 50000]⟩ : Shape) .f32)
    (s : ℕ) (x0 : Vec Ideal S256x2048 .f32) (x1 : Vec Ideal S1024x2048 .f32)
    (h0 : ∀ (p : Fin 256) (k : Fin 2048), x0 (ix2 p k) = rowZ bow p (2048 * s + k.val))
    (h1 : ∀ (q : Fin 1024) (k : Fin 2048), x1 (ix2 q k) = rowZ W1 q (2048 * s + k.val))
    (acc : Vec Ideal S256x1024 .f32) (j : S256x1024.Idx) :
    k0_pay2 (F := Ideal) x0 x1 acc j = acc j + tileProd bow W1 s j := by
  obtain ⟨p, q, rfl⟩ : ∃ (p : Fin 256) (q : Fin 1024), j = ix2 p q := ⟨j 0, j 1, eq_ix2 j⟩
  rw [pay2_apply]
  refine congrArg (acc (ix2 p q) + ·) ?_
  unfold tileProd
  rw [Finset.sum_range]
  exact Finset.sum_congr rfl fun k _ => congrArg₂ (· * ·) (h0 p k) (h1 q k)

/-- After point `n`, short of the last, the accumulator is the zero splat plus the products of tiles 0 … n. -/
theorem acc_after (c : Dev nD) : ∀ (n : ℕ) (h : n < cfg0.N), n ≤ 23 → ∀ j : S256x1024.Idx,
    (outsAt0 m c n h).2 j
      = Ideal.ofBits .f32 0x00000000#32 + ∑ s ∈ Finset.range (n + 1), tileProd (hist m c) (m ((c : Thread nD τ).loc main_arg1)) s j
  | 0, h, _, j => by
    rw [outsAt0_A m c ⟨0, h⟩ rfl (by show ¬(0 : ℕ) % 25 = 24; decide)]
    dsimp only
    rw [scratch_A]
    refine (step (hist m c) (m ((c : Thread nD τ).loc main_arg1)) 0 (iblk m c 0 ⟨0, h⟩) (iblk m c 1 ⟨0, h⟩)
      (tile0_apply m c ⟨0, h⟩) (tile1_apply m c ⟨0, h⟩) _ j).trans ?_
    rw [pay1_apply, Finset.sum_range_one]
  | n + 1, h, hn, j => by
    have hN : cfg0.N = 25 := N_0
    have hB0 : ¬(⟨n + 1, h⟩ : Fin cfg0.N).val % 25 = 0 := by dsimp only; omega
    have hB1 : ¬(⟨n + 1, h⟩ : Fin cfg0.N).val % 25 = 24 := by dsimp only; omega
    rw [outsAt0_B m c ⟨n + 1, h⟩ hB0 hB1]
    dsimp only
    rw [scratch_B]
    refine (step (hist m c) (m ((c : Thread nD τ).loc main_arg1)) (n + 1) (iblk m c 0 ⟨n + 1, h⟩) (iblk m c 1 ⟨n + 1, h⟩)
      (tile0_apply m c ⟨n + 1, h⟩) (tile1_apply m c ⟨n + 1, h⟩) _ j).trans ?_
    show (outsAt0 m c n _).2 j + _ = _
    rw [acc_after c n (Nat.lt_of_succ_lt h) (by omega) j, Finset.sum_range_succ _ (n + 1), add_assoc]

/-- What the last point stores into the accumulator: the contraction of the histogram with the first weight matrix
    over the 50000 true columns, rows against rows. -/
theorem acc_last (c : Dev nD) (h24 : 24 < cfg0.N) :
    k0_pay2 (F := Ideal) (iblk m c 0 ⟨24, h24⟩) (iblk m c 1 ⟨24, h24⟩)
        (outsAt0 m c 23 (Nat.lt_of_succ_lt h24)).2
      = rowsRows (hist m c) (m ((c : Thread nD τ).loc main_arg1)) := by
  funext j
  refine (step (hist m c) (m ((c : Thread nD τ).loc main_arg1)) 24 (iblk m c 0 ⟨24, h24⟩) (iblk m c 1 ⟨24, h24⟩)
    (tile0_apply m c ⟨24, h24⟩) (tile1_apply m c ⟨24, h24⟩) _ j).trans ?_
  rw [acc_after m c 23 (Nat.lt_of_succ_lt h24) (le_refl _) j, add_assoc,
    ← Finset.sum_range_succ (fun s => tileProd (hist m c) (m ((c : Thread nD τ).loc main_arg1)) s j) 24, Ideal.ofBits_zero_f32, zero_add]
  obtain ⟨p, q, rfl⟩ : ∃ (p : Fin 256) (q : Fin 1024), j = ix2 p q := ⟨j 0, j 1, eq_ix2 j⟩
  exact tiled_rowsRows (hist m c) (m ((c : Thread nD τ).loc main_arg1)) p q 2048 25 (by norm_num)

end Cert.KernelIdeal.Accumulate

end
-- ==== Proof.KernelValue.lean ====
/-
  What the kernel's result array holds after the run. The output window is written back once, after the last grid
  point, and its one block is the whole [256, 256] array. At that point the body has stored the full contraction
  into the accumulator and computed the three layers from it; the weight and bias windows hold whole argument arrays.
  So the result array ends as three dense layers over the histogram of the index array, and the arguments are unchanged.
-/
import proofs.«129739_j11982958756127_1_alg».proof.Proof.Accumulate

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.DenseStack
open Cert.KernelIdeal.Entry Cert.KernelIdeal.Pieces Cert.KernelIdeal.Payloads Cert.KernelIdeal.Accumulate

variable (m : (ℓ : Loc nD τ sig) → Buf (Elt Ideal) ℓ) (ρ : Dev nD → PrngReg)

/-- Three dense layers over the histogram, from the argument arrays as launched. -/
abbrev result (c : Dev nD) : Buf (Elt Ideal) ((c : Thread nD τ).loc main_v21) :=
  dense (M := 256) (K := 512) (N := 256)
    (dense (M := 256) (K := 1024) (N := 512)
      (dense (M := 256) (K := 50000) (N := 1024) (hist m c) (m ((c : Thread nD τ).loc main_arg1)) (m ((c : Thread nD τ).loc main_arg2)))
      (m ((c : Thread nD τ).loc main_arg3)) (m ((c : Thread nD τ).loc main_arg4)))
    (m ((c : Thread nD τ).loc main_arg5)) (m ((c : Thread nD τ).loc main_arg6))

/-- The output block after the last point. -/
theorem out_last (c : Dev nD) (h24 : 24 < cfg0.N) : (outsAt0 m c 24 h24).1 = result m c := by
  rw [outsAt0_C m c ⟨24, h24⟩ (by show ¬(24 : ℕ) % 25 = 0; decide) (by show (24 : ℕ) % 25 = 24; decide)]
  dsimp only
  rw [out_C]
  show k0_pay3 (F := Ideal)
      (k0_pay2 (F := Ideal) (iblk m c 0 ⟨24, h24⟩) (iblk m c 1 ⟨24, h24⟩) (outsAt0 m c 23 (Nat.lt_of_succ_lt h24)).2)
      (iblk m c 4 ⟨24, h24⟩) (iblk m c 2 ⟨24, h24⟩) (iblk m c 5 ⟨24, h24⟩) (iblk m c 3 ⟨24, h24⟩) (iblk m c 6 ⟨24, h24⟩)
    = result m c
  rw [acc_last m c h24, blk4_eq m c ⟨24, h24⟩, blk2_eq m c ⟨24, h24⟩, blk5_eq m c ⟨24, h24⟩, blk3_eq m c ⟨24, h24⟩,
    blk6_eq m c ⟨24, h24⟩, pay3_eq]
  rfl

theorem idx7 : ∀ t : Fin cfg0.N, win0_7.index t 0 = 0 ∧ win0_7.index t 1 = 0 :=
  (by decide +kernel : ∀ t : Fin grid0.N, win0_7.index t 0 = 0 ∧ win0_7.index t 1 = 0)

/-- The one write-back, after the last point, writes the result: block (0, 0) of the [256, 256] array is the array. -/
theorem flushed_eq (c : Dev nD) (t : Fin cfg0.N) (hf : (cfg0.win 7).flush t = true) :
    (dats m 0 c).flushed 7 t = ((cfg0.win 7).blk t).view.read (Elt Ideal) (result m c) := by
  have hN : cfg0.N = 25 := N_0
  have h24 : t.val = 24 := by have := (flush0_7 t).mp hf; have := t.isLt; omega
  obtain ⟨tv, ht⟩ := t
  obtain rfl : tv = 24 := h24
  show (cfg0.win 7).cut (grid0.coords ⟨24, ht⟩) ((dats m 0 c).after 7 ⟨24, ht⟩) = _
  rw [after0_7, out_last]
  have hz' : (fun a => win0_7.index ⟨24, ht⟩ a * main_v21.ty.shape.size a) = fun _ => 0 := funext fun a => by
    match a with
    | ⟨0, _⟩ => show win0_7.index ⟨24, ht⟩ 0 * 256 = 0; rw [(idx7 ⟨24, ht⟩).1]
    | ⟨1, _⟩ => show win0_7.index ⟨24, ht⟩ 1 * 256 = 0; rw [(idx7 ⟨24, ht⟩).2]
  exact (Memref.read_access_unit_zero (Elt Ideal) main_v21 hz' (fun a => by rw [congrFun hz' a]; simp) (result m c)).symm

/-- So the result array ends holding the three layers (the last point's block covers it). -/
theorem final_o (c : Dev nD) : (dats m 0 c).arrAt 7 cfg0.N = result m c := by
  have hN : cfg0.N = 25 := N_0
  have ht : 24 < cfg0.N := by omega
  refine (dats m 0 c).arrAt_eq_of_cover 7 (result m c) (flushed_eq m c) fun i =>
    ⟨⟨24, ht⟩, (flush0_7 ⟨24, ht⟩).mpr rfl, ?_⟩
  show i ∈ ((View.whole main_v21).slice (win0_7.rect ⟨24, ht⟩)).set
  rw [View.set_slice_whole, Rect.mem_set_unit]
  intro a
  have h0 : (i 0 : Nat) < 256 := (i 0).isLt
  have h1 : (i 1 : Nat) < 256 := (i 1).isLt
  match a with
  | ⟨0, _⟩ =>
    show win0_7.index ⟨24, ht⟩ 0 * win0_7.size 0 ≤ (i 0 : Nat)
      ∧ (i 0 : Nat) < win0_7.index ⟨24, ht⟩ 0 * win0_7.size 0 + win0_7.xsize (grid0.coords ⟨24, ht⟩) 0
    rw [(idx7 ⟨24, ht⟩).1, show win0_7.xsize (grid0.coords ⟨24, ht⟩) 0 = 256 from rfl]; omega
  | ⟨1, _⟩ =>
    show win0_7.index ⟨24, ht⟩ 1 * win0_7.size 1 ≤ (i 1 : Nat)
      ∧ (i 1 : Nat) < win0_7.index ⟨24, ht⟩ 1 * win0_7.size 1 + win0_7.xsize (grid0.coords ⟨24, ht⟩) 1
    rw [(idx7 ⟨24, ht⟩).2, show win0_7.xsize (grid0.coords ⟨24, ht⟩) 1 = 256 from rfl]; omega

/-- The run, read: the result array at the three layers over the histogram, every argument unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_o m c), (h c).2⟩)
    (Cert.KernelIdeal.Value.run_blocks (F := Ideal) m ρ)

end Cert.KernelIdeal.KernelValue

end
-- ==== Proof.RefValue.lean ====
/-
  The reference, stage by stage, on the extended reals. After the histogram it computes three times the same thing:
  the weight matrix transposed, a contraction of the activations' columns with the transposed matrix's rows — so
  entry (p, q) sums activations (p, k) times weights (q, k) —, the bias laid out as a row and repeated down the
  rows, and the maximum with a zero splat. Each is the dense layer of the specification, so the result is the stack of
  three layers over the histogram.
-/
import proofs.«129739_j11982958756127_1_alg».proof.Proof.Gen.ReferenceIdeal.Read
import proofs.«129739_j11982958756127_1_alg».proof.Proof.Spec

noncomputable section

open scoped BigOperators

namespace Cert.ReferenceIdeal.RefValue

open Idealize.ShloMosaic Idealize.ShloMosaic.ValueIdx Cert.ReferenceIdeal Cert.ReferenceIdeal.Read Cert.DenseStack

/-- The first layer, over the histogram. -/
theorem layer1 (x0 : (⟨S256x512, .i32⟩ : BufTy).Contents (Elt Ideal)) (x1 : (⟨S1024x50000, .f32⟩ : BufTy).Contents (Elt Ideal)) (x2 : (⟨S1024, .f32⟩ : BufTy).Contents (Elt Ideal)) :
    val_main_v24 (F := Ideal) x0 x1 x2 = dense (val_main_v18 (F := Ideal) x0) x1 x2 := by
  funext j
  obtain ⟨p, q, rfl⟩ : ∃ (p : Fin 256) (q : Fin 1024), j = ix2 p q := ⟨j 0, j 1, eq_ix2 j⟩
  rw [val_main_v24_apply, val_main_v23_apply, val_main_v20_apply, val_main_v22_apply, val_main_v21_apply,
    val_main_call0_v0_apply, val_main_call0_cst_apply]
  simp only [val_main_v19_apply]
  have el : ∀ k : Fin 50000, lidx_main_v20 (ix2 p q) k = ix2 p k := fun k => funext fun a => by
    match a with | ⟨0, _⟩ => rfl | ⟨1, _⟩ => rfl
  have er : ∀ k : Fin 50000, idx_main_v19 (ridx_main_v20 (ix2 p q) k) = ix2 q k := fun k => funext fun a => by
    match a with | ⟨0, _⟩ => rfl | ⟨1, _⟩ => rfl
  have eb : idx_main_v21 (idx_main_v22 (ix2 p q)) = ix1 q := funext fun a => by
    match a with | ⟨0, _⟩ => rfl
  simp only [el, er, eb]
  rfl

/-- The second layer, over the first's activations. -/
theorem layer2 (x0 : (⟨S256x512, .i32⟩ : BufTy).Contents (Elt Ideal)) (x1 : (⟨S1024x50000, .f32⟩ : BufTy).Contents (Elt Ideal)) (x2 : (⟨S1024, .f32⟩ : BufTy).Contents (Elt Ideal)) (x3 : (⟨S512x1024, .f32⟩ : BufTy).Contents (Elt Ideal)) (x4 : (⟨S512, .f32⟩ : BufTy).Contents (Elt Ideal)) :
    val_main_v30 (F := Ideal) x0 x1 x2 x3 x4 = dense (val_main_v24 (F := Ideal) x0 x1 x2) x3 x4 := by
  funext j
  obtain ⟨p, q, rfl⟩ : ∃ (p : Fin 256) (q : Fin 512), j = ix2 p q := ⟨j 0, j 1, eq_ix2 j⟩
  rw [val_main_v30_apply, val_main_v29_apply, val_main_v26_apply, val_main_v28_apply, val_main_v27_apply,
    val_main_call1_v0_apply, val_main_call1_cst_apply]
  simp only [val_main_v25_apply]
  have el : ∀ k : Fin 1024, lidx_main_v26 (ix2 p q) k = ix2 p k := fun k => funext fun a => by
    match a with | ⟨0, _⟩ => rfl | ⟨1, _⟩ => rfl
  have er : ∀ k : Fin 1024, idx_main_v25 (ridx_main_v26 (ix2 p q) k) = ix2 q k := fun k => funext fun a => by
    match a with | ⟨0, _⟩ => rfl | ⟨1, _⟩ => rfl
  have eb : idx_main_v27 (idx_main_v28 (ix2 p q)) = ix1 q := funext fun a => by
    match a with | ⟨0, _⟩ => rfl
  simp only [el, er, eb]
  rfl

/-- The third layer, over the second's activations. -/
theorem layer3 (x0 : (⟨S256x512, .i32⟩ : BufTy).Contents (Elt Ideal)) (x1 : (⟨S1024x50000, .f32⟩ : BufTy).Contents (Elt Ideal)) (x2 : (⟨S1024, .f32⟩ : BufTy).Contents (Elt Ideal)) (x3 : (⟨S512x1024, .f32⟩ : BufTy).Contents (Elt Ideal)) (x4 : (⟨S512, .f32⟩ : BufTy).Contents (Elt Ideal)) (x5 : (⟨S256x512, .f32⟩ : BufTy).Contents (Elt Ideal)) (x6 : (⟨S256, .f32⟩ : BufTy).Contents (Elt Ideal)) :
    val_main_v36 (F := Ideal) x0 x1 x2 x3 x4 x5 x6 = dense (val_main_v30 (F := Ideal) x0 x1 x2 x3 x4) x5 x6 := by
  funext j
  obtain ⟨p, q, rfl⟩ : ∃ (p : Fin 256) (q : Fin 256), j = ix2 p q := ⟨j 0, j 1, eq_ix2 j⟩
  rw [val_main_v36_apply, val_main_v35_apply, val_main_v32_apply, val_main_v34_apply, val_main_v33_apply,
    val_main_call2_v0_apply, val_main_call2_cst_apply]
  simp only [val_main_v31_apply]
  have el : ∀ k : Fin 512, lidx_main_v32 (ix2 p q) k = ix2 p k := fun k => funext fun a => by
    match a with | ⟨0, _⟩ => rfl | ⟨1, _⟩ => rfl
  have er : ∀ k : Fin 512, idx_main_v31 (ridx_main_v32 (ix2 p q) k) = ix2 q k := fun k => funext fun a => by
    match a with | ⟨0, _⟩ => rfl | ⟨1, _⟩ => rfl
  have eb : idx_main_v33 (idx_main_v34 (ix2 p q)) = ix1 q := funext fun a => by
    match a with | ⟨0, _⟩ => rfl
  simp only [el, er, eb]
  rfl

/-- The reference's result: three dense layers over the histogram of the index array. -/
theorem result_eq (x0 : (⟨S256x512, .i32⟩ : BufTy).Contents (Elt Ideal)) (x1 : (⟨S1024x50000, .f32⟩ : BufTy).Contents (Elt Ideal)) (x2 : (⟨S1024, .f32⟩ : BufTy).Contents (Elt Ideal)) (x3 : (⟨S512x1024, .f32⟩ : BufTy).Contents (Elt Ideal)) (x4 : (⟨S512, .f32⟩ : BufTy).Contents (Elt Ideal)) (x5 : (⟨S256x512, .f32⟩ : BufTy).Contents (Elt Ideal)) (x6 : (⟨S256, .f32⟩ : BufTy).Contents (Elt Ideal)) :
    val_main_v36 (F := Ideal) x0 x1 x2 x3 x4 x5 x6
      = dense (dense (dense (val_main_v18 (F := Ideal) x0) x1 x2) x3 x4) x5 x6 := by
  rw [layer3, layer2, layer1]

end Cert.ReferenceIdeal.RefValue

end
-- ==== Proof.lean ====
/-
  A bag-of-words histogram pushed through three dense layers with a rectifier after each: the tiled kernel against the
  plain reference, equal on the extended reals.

  Both programs begin with the same host operations: ones are scattered into a zero [256, 50000] array at the
  positions the index array names. The reference then computes, three times, `max (h · Wᵀ + b) 0`. The kernel first
  appends 1200 zero columns to the histogram and to the first weight matrix, walks the 51200 columns in 25 tiles of
  2048, adds each tile's product h_tile · W_tileᵀ into an accumulator that the first point zeroes, and at the last
  point applies bias and rectifier and the two further layers, writing the result out once.

  The two agree because a sum may be re-associated and the padded terms are `0 * 0 = 0`:
  `0 + ∑ tiles ∑ columns-in-tile = ∑ 51200 columns = ∑ 50000 true columns`. Cutting an operand to a narrower float
  format changes nothing on the extended reals, and the matrix unit's product into a zero accumulator and the host's
  contraction are the same sum. No step needs an input to be finite.

  The frames of the two kernel programs are generated; the reference's frame is its generated run with the result
  dropped; the idealization rewrote nothing.
-/
import proofs.«129739_j11982958756127_1_alg».proof.Defs
import proofs.«129739_j11982958756127_1_alg».proof.Proof.Gen.Kernel
import proofs.«129739_j11982958756127_1_alg».proof.Proof.Gen.Kernel.Skeleton
import proofs.«129739_j11982958756127_1_alg».proof.Proof.Gen.Kernel.Launch
import proofs.«129739_j11982958756127_1_alg».proof.Proof.Gen.Kernel.Points
import proofs.«129739_j11982958756127_1_alg».proof.Proof.Gen.Kernel.Frame
import proofs.«129739_j11982958756127_1_alg».proof.Proof.Gen.KernelIdeal
import proofs.«129739_j11982958756127_1_alg».proof.Proof.Gen.KernelIdeal.Skeleton
import proofs.«129739_j11982958756127_1_alg».proof.Proof.Gen.KernelIdeal.Launch
import proofs.«129739_j11982958756127_1_alg».proof.Proof.Gen.KernelIdeal.Points
import proofs.«129739_j11982958756127_1_alg».proof.Proof.Gen.KernelIdeal.Frame
import proofs.«129739_j11982958756127_1_alg».proof.Proof.Gen.KernelIdeal.Value
import proofs.«129739_j11982958756127_1_alg».proof.Proof.Gen.ReferenceIdeal
import proofs.«129739_j11982958756127_1_alg».proof.Proof.Gen.ReferenceIdeal.Run
import proofs.«129739_j11982958756127_1_alg».proof.Proof.Gen.ReferenceIdeal.Read
import proofs.«129739_j11982958756127_1_alg».proof.Proof.Gen.Pre_finite_inputs
import proofs.«129739_j11982958756127_1_alg».proof.Proof.KernelValue
import proofs.«129739_j11982958756127_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at three dense layers over the histogram of the (agreeing) index arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq (F := Ideal) _ _ _ _ _ _ _).trans ?_
  rw [Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
